-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S4096x11008 : Shape := ⟨2, ![4096, 11008]⟩
abbrev S11008 : Shape := ⟨1, ![11008]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_
  bcast_S_S11008 : S_.BroadcastsInDim S11008 (![] : Fin 0 → Fin S11008.rank)
  reducesTo_S11008_S_d0 : S11008.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S11008 .f32) (main_arg5 : FVec F S11008 .f32) (main_arg6 : FVec F S4096 .f32) (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  let main_v19 : FVec F S11008 .f32 := Host.absf main_arg4
  let main_cst_6 : FVec F S_ .f32 := constant S_ .f32 0x7F800000#32
  let main_v20 : FVec F S11008 .f32 := broadcastInDim S11008 ![] bcast_S_S11008 main_cst_6
  let main_v21 : IVec S11008 1 := cmpf .olt main_v19 main_v20
  let main_c_7 : IVec S_ 1 := constantI S_ 1 1#1
  let main_v22 : IVec S_ 1 := (fun x v => Host.reduce IntOp.andi x v reducesTo_S11008_S_d0 h_S_) main_v21 main_c_7
  let main_v23 : IVec S_ 1 := andi main_v18 main_v22
  let main_v24 : FVec F S11008 .f32 := Host.absf main_arg5
  let main_cst_8 : FVec F S_ .f32 := constant S_ .f32 0x7F800000#32
  let main_v25 : FVec F S11008 .f32 := broadcastInDim S11008 ![] bcast_S_S11008 main_cst_8
  let main_v26 : IVec S11008 1 := cmpf .olt main_v24 main_v25
  let main_c_9 : IVec S_ 1 := constantI S_ 1 1#1
  let main_v27 : IVec S_ 1 := (fun x v => Host.reduce IntOp.andi x v reducesTo_S11008_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S4x2048x4096 .f32) (main_arg1 : FVec F S11008x4096 .f32) (main_arg2 : FVec F S11008x4096 .f32) (main_arg3 : FVec F S4096x11008 .f32) (main_arg4 : FVec F S11008 .f32) (main_arg5 : FVec F S11008 .f32) (main_arg6 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_arg4 main_arg5 main_arg6 main_v13 main_v16
-- ==== Kernel.lean ====
abbrev S4x2048x4096 : Shape := ⟨3, ![4, 2048, 4096]⟩
abbrev S11008x4096 : Shape := ⟨2, ![11008, 4096]⟩
abbrev S4096x11008 : Shape := ⟨2, ![4096, 11008]⟩
abbrev S11008 : Shape := ⟨1, ![11008]⟩
abbrev S4096 : Shape := ⟨1, ![4096]⟩
abbrev S8192x4096 : Shape := ⟨2, ![8192, 4096]⟩
abbrev S1x11008 : Shape := ⟨2, ![1, 11008]⟩
abbrev S1x4096 : Shape := ⟨2, ![1, 4096]⟩
abbrev S8192x11008 : Shape := ⟨2, ![8192, 11008]⟩
abbrev S1024x4096 : Shape := ⟨2, ![1024, 4096]⟩
abbrev S256x4096 : Shape := ⟨2, ![256, 4096]⟩
abbrev S1x256 : Shape := ⟨2, ![1, 256]⟩
abbrev S1024x256 : Shape := ⟨2, ![1024, 256]⟩
abbrev S2048x256 : Shape := ⟨2, ![2048, 256]⟩
abbrev S1x1024 : Shape := ⟨2, ![1, 1024]⟩
abbrev S2048x1024 : Shape := ⟨2, ![2048, 1024]⟩

abbrev nBuf : Space → Nat
  | .hbm => 18
  | .vmem => 20
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S11008, .f32⟩
  | .hbm, ⟨5, _⟩ => ⟨S11008, .f32⟩
  | .hbm, ⟨6, _⟩ => ⟨S4096, .f32⟩
  | .hbm, ⟨7, _⟩ => ⟨S8192x4096, .f32⟩
  | .hbm, ⟨8, _⟩ => ⟨S8192x4096, .bf16⟩
  | .hbm, ⟨9, _⟩ => ⟨S11008x4096, .bf16⟩
  | .hbm, ⟨10, _⟩ => ⟨S11008x4096, .bf16⟩
  | .hbm, ⟨11, _⟩ => ⟨S4096x11008, .bf16⟩
  | .hbm, ⟨12, _⟩ => ⟨S1x11008, .f32⟩
  | .hbm, ⟨13, _⟩ => ⟨S1x11008, .f32⟩
  | .hbm, ⟨14, _⟩ => ⟨S1x4096, .f32⟩
  | .hbm, ⟨15, _⟩ => ⟨S8192x11008, .f32⟩
  | .hbm, ⟨16, _⟩ => ⟨S8192x4096, .f32⟩
  | .hbm, ⟨17, _⟩ => ⟨S4x2048x4096, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1024x256, .f32⟩
  | .local _ .vmem, ⟨11, _⟩ => ⟨S1024x256, .f32⟩
  | .local _ .vmem, ⟨12, _⟩ => ⟨S2048x256, .f32⟩
  | .local _ .vmem, ⟨13, _⟩ => ⟨S2048x256, .f32⟩
  | .local _ .vmem, ⟨14, _⟩ => ⟨S1024x256, .bf16⟩
  | .local _ .vmem, ⟨15, _⟩ => ⟨S1024x256, .bf16⟩
  | .local _ .vmem, ⟨16, _⟩ => ⟨S1x1024, .f32⟩
  | .local _ .vmem, ⟨17, _⟩ => ⟨S1x1024, .f32⟩
  | .local _ .vmem, ⟨18, _⟩ => ⟨S2048x1024, .f32⟩
  | .local _ .vmem, ⟨19, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![4, 4, 43], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x4096_S8192x4096 : S4x2048x4096.ShapeCasts S8192x4096
  bitsLt_bf16_f32 : FTy.bits .bf16 < FTy.bits .f32
  shapeCasts_S11008_S1x11008 : S11008.ShapeCasts S1x11008
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  inb_S2048x1024_S2048x1024_0_0 : ∀ a, (![0, 0] : Fin 2 → Nat) a + S2048x1024.size a ≤ S2048x1024.size a
  h_S2048x1024 : 0 < S2048x1024.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  shapeCasts_S1024x256_S1024x256 : S1024x256.ShapeCasts S1024x256
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S1024x4096_S256x4096_S1024x256_1_1_0_0_n_n_wf : DotDims.WF S1024x4096 S256x4096 S1024x256 [1] [1] [0] [0] [] []
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .bf16 = 32 ∨ (Rect.block (s := S11008x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x11008.size a
  hwx0_4 : ∀ i : grid0.Coords, EltTy.bits .f32 = 32 ∨ (Rect.block (s := S1x11008) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x11008.size a
  hwx0_5 : ∀ i : grid0.Coords, EltTy.bits .f32 = 32 ∨ (Rect.block (s := S8192x11008) S1024x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S8192x11008.size a
  hwx1_0 : ∀ i : grid1.Coords, EltTy.bits .f32 = 32 ∨ (Rect.block (s := S8192x11008) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S4096x11008.size a
  hwx1_1 : ∀ i : grid1.Coords, EltTy.bits .bf16 = 32 ∨ (Rect.block (s := S4096x11008) S1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S8192x4096.size a
  hwx1_3 : ∀ i : grid1.Coords, EltTy.bits .f32 = 32 ∨ (Rect.block (s := S8192x4096) S2048x1024.size (cc1_transform_3 i) (hinb1_3 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf
def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v8) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S4096x11008 : Shape := ⟨2, ![4096, 11008]⟩
abbrev S11008 : Shape := ⟨1, ![11008]⟩
abbrev S4096 : Shape := ⟨1, ![4096]⟩
abbrev S4x2048x11008 : Shape := ⟨3, ![4, 2048, 11008]⟩
abbrev S1x1x11008 : Shape := ⟨3, ![1, 1, 11008]⟩
abbrev S_ : Shape := ⟨0, ![]⟩
abbrev S1x1x4096 : Shape := ⟨3, ![1, 1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S11008, .f32⟩
  | .hbm, ⟨5, _⟩ => ⟨S11008, .f32⟩
  | .hbm, ⟨6, _⟩ => ⟨S4096, .f32⟩
  | .hbm, ⟨7, _⟩ => ⟨S4x2048x11008, .f32⟩
  | .hbm, ⟨8, _⟩ => ⟨S1x1x11008, .f32⟩
  | .hbm, ⟨9, _⟩ => ⟨S4x2048x11008, .f32⟩
  | .hbm, ⟨10, _⟩ => ⟨S4x2048x11008, .f32⟩
  | .hbm, ⟨11, _⟩ => ⟨S4x2048x11008, .f32⟩
  | .hbm, ⟨12, _⟩ => ⟨S1x1x11008, .f32⟩
  | .hbm, ⟨13, _⟩ => ⟨S4x2048x11008, .f32⟩
  | .hbm, ⟨14, _⟩ => ⟨S4x2048x11008, .f32⟩
  | .hbm, ⟨15, _⟩ => ⟨S4x2048x11008, .f32⟩
  | .hbm, ⟨16, _⟩ => ⟨S4x2048x11008, .f32⟩
  | .hbm, ⟨17, _⟩ => ⟨S_, .f32⟩
  | .hbm, ⟨18, _⟩ => ⟨S4x2048x11008, .f32⟩
  | .hbm, ⟨19, _⟩ => ⟨S4x2048x11008, .f32⟩
  | .hbm, ⟨20, _⟩ => ⟨S_, .f32⟩
  | .hbm, ⟨21, _⟩ => ⟨S4x2048x11008, .f32⟩
  | .hbm, ⟨22, _⟩ => ⟨S4x2048x11008, .f32⟩
  | .hbm, ⟨23, _⟩ => ⟨S4x2048x11008, .f32⟩
  | .hbm, ⟨24, _⟩ => ⟨S4x2048x11008, .f32⟩
  | .hbm, ⟨25, _⟩ => ⟨S4x2048x4096, .f32⟩
  | .hbm, ⟨26, _⟩ => ⟨S1x1x4096, .f32⟩
  | .hbm, ⟨27, _⟩ => ⟨S4x2048x4096, .f32⟩
  | .hbm, ⟨28, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩

abbrev nD : Nat := 1
abbrev τ : Topo := Topo.v7x

variable {F : FTy → Type} [FloatOps F]

class Facts₀ : Prop where
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  bcast_S_S4x2048x11008 : S_.BroadcastsInDim S4x2048x11008 (![] : Fin 0 → Fin S4x2048x11008.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S11008x4096_S4x2048x11008_2_1_01_0_n_n_wf : DotDims.WF S4x2048x4096 S11008x4096 S4x2048x11008 [2] [1] [0, 1] [0] [] []
  dot_S4x2048x11008_S4096x11008_S4x2048x4096_2_1_01_0_n_n_wf : DotDims.WF S4x2048x11008 S4096x11008 S4x2048x4096 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf
def dot_S4x2048x11008_S4096x11008_S4x2048x4096_2_1_01_0_n_n : DotDims S4x2048x11008 S4096x11008 S4x2048x4096 where
  lhsContracting := [2]
  rhsContracting := [1]
  lhsNonContracting := [0, 1]
  rhsNonContracting := [0]
  lhsBatch := []
  rhsBatch := []
  wf := dot_S4x2048x11008_S4096x11008_S4x2048x4096_2_1_01_0_n_n_wf

class Facts : Prop extends Facts₀ where

variable [Facts]
-- ==== Proof.Spec.lean ====
/-
  The mathematics of the gated MLP, stated once over whole arrays at the extended reals.

  With M = 8192 rows of activations, a hidden width of 4096 and an inner width of 11008:
  a projection entry is a row of the activations against a row of a weight matrix, scaled per output channel,
      proj x w a (p, i) = (Σ_k x[p,k] · w[i,k]) · a[0,i];
  the inner activation is SiLU of the gate projection times the up projection,
      hidden (p, i) = (g · logistic g) · u     with g = proj x wg ag (p, i), u = proj x wu au (p, i);
  and the result is the inner activation against the rows of the down weights, scaled per output channel,
      down h wd ad (p, n) = (Σ_i h[p,i] · wd[n,i]) · ad[0,n].
  Every array is a function from the indices of a literal shape to the extended reals; a change of float format is
  the identity there, so the operand formats play no role.
-/
import proofs.«155312_j63883343560961_2_alg».proof.KernelIdeal
import Idealize.ShloMosaic.PureOps.Ideal
import Idealize.ShloMosaic.Lib.ValueIdx

noncomputable section

namespace Cert.KernelIdeal.Spec

open Idealize.ShloMosaic Idealize.ShloMosaic.ValueIdx Cert.KernelIdeal

/-- One projection entry: row `p` of the activations against row `i` of the weights, times channel `i`'s scale. -/
def proj (x : S8192x4096.Idx → EReal) (w : S11008x4096.Idx → EReal) (a : S1x11008.Idx → EReal)
    (p : Fin 8192) (i : Fin 11008) : EReal :=
  (∑ k : Fin 4096, x (ix2 p k) * w (ix2 i k)) * a (ix2 (0 : Fin 1) i)

/-- The inner activation: SiLU of the gate projection times the up projection, entry by entry. -/
def hidden (x : S8192x4096.Idx → EReal) (wg wu : S11008x4096.Idx → EReal) (ag au : S1x11008.Idx → EReal) :
    S8192x11008.Idx → EReal := fun j =>
  (proj x wg ag (j 0) (j 1) * Ideal.logistic (proj x wg ag (j 0) (j 1))) * proj x wu au (j 0) (j 1)

/-- The down projection: row `p` of the inner activation against row `n` of the down weights, times channel `n`'s scale. -/
def down (h : S8192x11008.Idx → EReal) (wd : S4096x11008.Idx → EReal) (ad : S1x4096.Idx → EReal) :
    S8192x4096.Idx → EReal := fun j =>
  (∑ i : Fin 11008, h (ix2 (j 0) i) * wd (ix2 (j 1) i)) * ad (ix2 (0 : Fin 1) (j 1))

end Cert.KernelIdeal.Spec

end
-- ==== Proof.GateUpBody.lean ====
/- The gate-up kernel's arithmetic, read at one entry of the block it stores. -/
import proofs.«155312_j63883343560961_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.GateUp

open Cert.KernelIdeal Cert.KernelIdeal.Gen

/-- The contraction the kernel's two products share: rows of a [1024, 4096] block against rows of a [256, 4096] block. -/
abbrev rowsDot : DotDims S1024x4096 S256x4096 S1024x256 := dot_S1024x4096_S256x4096_S1024x256_1_1_0_0_n_n

/-- The left operand is read in the output's row … -/
theorem lhs_row (j : S1024x256.Idx) (k : rowsDot.contr.Idx) : (rowsDot.lhsIdx j k 0).val = (j 0).val := by
  unfold DotDims.lhsIdx
  rw [dif_neg (show ¬(0 : Fin S1024x4096.rank) ∈ rowsDot.lhsBatch by decide),
    dif_pos (show (0 : Fin S1024x4096.rank) ∈ rowsDot.lhsNonContracting by decide)]
  rfl

/-- … at the contraction position; -/
theorem lhs_col (j : S1024x256.Idx) (k : rowsDot.contr.Idx) : (rowsDot.lhsIdx j k 1).val = (k ⟨0, by decide⟩).val :=
  rowsDot.lhsIdx_val_of_single rfl j k

/-- the right operand in the row the output's column names … -/
theorem rhs_row (j : S1024x256.Idx) (k : rowsDot.contr.Idx) : (rowsDot.rhsIdx j k 0).val = (j 1).val := by
  unfold DotDims.rhsIdx
  rw [dif_neg (show ¬(0 : Fin S256x4096.rank) ∈ rowsDot.rhsBatch by decide),
    dif_pos (show (0 : Fin S256x4096.rank) ∈ rowsDot.rhsNonContracting by decide)]
  rfl

/-- … at the contraction position. -/
theorem rhs_col (j : S1024x256.Idx) (k : rowsDot.contr.Idx) : (rowsDot.rhsIdx j k 1).val = (k ⟨0, by decide⟩).val :=
  rowsDot.rhsIdx_val_of_single rfl j k

/-- A product into a zero accumulator, at entry (p, q): row p of the left block against row q of the right one. -/
theorem rows_apply (x : FVec Ideal S1024x4096 .bf16) (w : FVec Ideal S256x4096 .bf16) (p : Fin 1024) (q : Fin 256) :
    matmul rowsDot none x w (constant S1024x256 .f32 0x00000000#32) (ix2 p q)
      = ∑ k : Fin 4096, x (ix2 p k) * w (ix2 q k) := by
  refine (Ideal.matmul_constant_zero_apply rowsDot none x w (ix2 p q)).trans ?_
  rw [← Equiv.sum_comp (contrEquiv1 rowsDot 4096 rfl rfl).symm]
  refine Finset.sum_congr rfl fun k _ => ?_
  have hk := contrEquiv1_symm_val rowsDot 4096 rfl rfl k
  have el : rowsDot.lhsIdx (ix2 p q) ((contrEquiv1 rowsDot 4096 rfl rfl).symm k) = ix2 p k := funext fun a => Fin.ext (by
    match a with
    | ⟨0, _⟩ => exact lhs_row _ _
    | ⟨1, _⟩ => exact (lhs_col _ _).trans hk)
  have er : rowsDot.rhsIdx (ix2 p q) ((contrEquiv1 rowsDot 4096 rfl rfl).symm k) = ix2 q k := funext fun a => Fin.ext (by
    match a with
    | ⟨0, _⟩ => exact rhs_row _ _
    | ⟨1, _⟩ => exact (rhs_col _ _).trans hk)
  rw [el, er]

/-- A row of per-column scales spread over the block's rows reads, at (p, q), column q's scale. -/
theorem scales_apply (a : FVec Ideal S1x256 .f32) (p : Fin 1024) (q : Fin 256) :
    broadcastTo S1024x256 (shapeCast S1x256 a shapeCasts_S1x256_S1x256) broadcasts_S1x256_S1024x256 (ix2 p q)
      = a (ix2 (0 : Fin 1) q) := by
  rw [shapeCast_self]
  refine broadcastTo_apply a broadcasts_S1x256_S1024x256 (ix2 p q) (ix2 (0 : Fin 1) q) (fun d => ?_)
  match d with
  | ⟨0, _⟩ => show 0 = if (1 : Nat) = 1 then 0 else _; rw [if_pos rfl]
  | ⟨1, _⟩ => show q.val = if (256 : Nat) = 1 then 0 else q.val; rw [if_neg (by decide)]

/-- One projection of the block at entry (p, q): row p against row q of the weights, times column q's scale. -/
theorem proj_apply (x : FVec Ideal S1024x4096 .bf16) (w : FVec Ideal S256x4096 .bf16) (a : FVec Ideal S1x256 .f32)
    (p : Fin 1024) (q : Fin 256) :
    mulf (matmul rowsDot none (shapeCast S1024x4096 x shapeCasts_S1024x4096_S1024x4096)
        (shapeCast S256x4096 w shapeCasts_S256x4096_S256x4096) (constant S1024x256 .f32 0x00000000#32))
      (broadcastTo S1024x256 (shapeCast S1x256 a shapeCasts_S1x256_S1x256) broadcasts_S1x256_S1024x256) (ix2 p q)
      = (∑ k : Fin 4096, x (ix2 p k) * w (ix2 q k)) * a (ix2 (0 : Fin 1) q) := by
  refine (mulf_apply _ _ _).trans ?_
  rw [scales_apply, shapeCast_self x, shapeCast_self w, rows_apply]

/-- The stored block at entry (p, q): with g and u the gate and up projections of row p against rows q, each times
    column q's scale, the entry is (g · logistic g) · u. -/
theorem pay_apply (x : Vec Ideal S1024x4096 .bf16) (wg wu : Vec Ideal S256x4096 .bf16) (ag au : Vec Ideal S1x256 .f32)
    (p : Fin 1024) (q : Fin 256) :
    k0_pay1 (F := Ideal) x wg wu ag au (ix2 p q)
      = (((∑ k : Fin 4096, x (ix2 p k) * wg (ix2 q k)) * ag (ix2 (0 : Fin 1) q))
          * Ideal.logistic ((∑ k : Fin 4096, x (ix2 p k) * wg (ix2 q k)) * ag (ix2 (0 : Fin 1) q)))
        * ((∑ k : Fin 4096, x (ix2 p k) * wu (ix2 q k)) * au (ix2 (0 : Fin 1) q)) := by
  have hg := proj_apply x wg ag p q
  have hu := proj_apply x wu au p q
  unfold k0_pay1
  exact congrArg₂ (· * ·) (congrArg₂ (· * ·) hg (congrArg Ideal.logistic hg)) hu

end Cert.KernelIdeal.GateUp

end
-- ==== Proof.HiddenArray.lean ====
/- The first call's result array, after the run, is the inner activation of the arrays the call finds. -/
import proofs.«155312_j63883343560961_2_alg».proof.Proof.Spec
import proofs.«155312_j63883343560961_2_alg».proof.Proof.GateUpBody
import proofs.«155312_j63883343560961_2_alg».proof.Proof.Gen.KernelIdeal.Frame
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.GateUp

open Cert.KernelIdeal Cert.KernelIdeal.Gen

/-- The zero offset pair, as a constant function. -/
theorem hz : (![0, 0] : Fin 2 → Nat) = fun _ => 0 := funext fun a => by fin_cases a <;> rfl

/-- Where each window's block sits at grid point t = 43·i + j: the activations' block is row block i, the two weight
    blocks and the two scale blocks are block j of their arrays, and the output's block is (i, j). -/
theorem blocks_at : ∀ t : Fin cfg0.N,
    win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = t.val % 43 ∧ win0_2.index t (1 : Fin 2) = 0
    ∧ win0_3.index t (0 : Fin 2) = 0 ∧ win0_3.index t (1 : Fin 2) = t.val % 43
    ∧ win0_4.index t (0 : Fin 2) = 0 ∧ win0_4.index t (1 : Fin 2) = t.val % 43
    ∧ win0_5.index t (0 : Fin 2) = t.val / 43 ∧ win0_5.index t (1 : Fin 2) = t.val % 43 :=
  (by decide +kernel : ∀ t : Fin grid0.N, _)

/-- A grid point is one of 344. -/
theorem point_lt (t : Fin cfg0.N) : t.val < 344 := lt_of_lt_of_eq t.isLt N_0

section Blocks

-- the contents of the buffers when the call is entered
variable (V : (c : Dev nD) → (b : Ref sig .tc) → Buf (Elt Ideal) ((c : Thread nD τ).loc b))

/-- The activations' block at a point, entry (p, k): row (t / 43)·1024 + p of the activations. -/
theorem x_block (c : Dev nD) (t : Fin cfg0.N) (p : Fin 1024) (k : Fin 4096) (r : Fin 8192)
    (hr : r.val = t.val / 43 * 1024 + p.val) :
    (iblk0 (F := Ideal) V c 0 t : S1024x4096.Idx → EReal) (ix2 p k) = (V c main_v1 : S8192x4096.Idx → EReal) (ix2 r k) := by
  obtain ⟨e00, e01, -⟩ := blocks_at t
  unfold iblk0
  rw [View.read_apply]
  show V c main_v1 (((cfg0.win 0).blk t).view.emb (ix2 p k)) = V c main_v1 (ix2 r k)
  refine congrArg _ (funext fun a => Fin.ext ?_)
  match a with
  | ⟨0, _⟩ => show win0_0.index t (0 : Fin 2) * 1024 + 1 * p.val = r.val; omega
  | ⟨1, _⟩ => show win0_0.index t (1 : Fin 2) * 4096 + 1 * k.val = k.val; omega

/-- A weight block at a point, entry (q, k): row (t % 43)·256 + q of the gate weights … -/
theorem wg_block (c : Dev nD) (t : Fin cfg0.N) (q : Fin 256) (k : Fin 4096) (n : Fin 11008)
    (hn : n.val = t.val % 43 * 256 + q.val) :
    (iblk0 (F := Ideal) V c 1 t : S256x4096.Idx → EReal) (ix2 q k) = (V c main_v2 : S11008x4096.Idx → EReal) (ix2 n k) := by
  obtain ⟨-, -, e10, e11, -⟩ := blocks_at t
  unfold iblk0
  rw [View.read_apply]
  show V c main_v2 (((cfg0.win 1).blk t).view.emb (ix2 q k)) = V c main_v2 (ix2 n k)
  refine congrArg _ (funext fun a => Fin.ext ?_)
  match a with
  | ⟨0, _⟩ => show win0_1.index t (0 : Fin 2) * 256 + 1 * q.val = n.val; omega
  | ⟨1, _⟩ => show win0_1.index t (1 : Fin 2) * 4096 + 1 * k.val = k.val; omega

/-- … and of the up weights. -/
theorem wu_block (c : Dev nD) (t : Fin cfg0.N) (q : Fin 256) (k : Fin 4096) (n : Fin 11008)
    (hn : n.val = t.val % 43 * 256 + q.val) :
    (iblk0 (F := Ideal) V c 2 t : S256x4096.Idx → EReal) (ix2 q k) = (V c main_v3 : S11008x4096.Idx → EReal) (ix2 n k) := by
  obtain ⟨-, -, -, -, e20, e21, -⟩ := blocks_at t
  unfold iblk0
  rw [View.read_apply]
  show V c main_v3 (((cfg0.win 2).blk t).view.emb (ix2 q k)) = V c main_v3 (ix2 n k)
  refine congrArg _ (funext fun a => Fin.ext ?_)
  match a with
  | ⟨0, _⟩ => show win0_2.index t (0 : Fin 2) * 256 + 1 * q.val = n.val; omega
  | ⟨1, _⟩ => show win0_2.index t (1 : Fin 2) * 4096 + 1 * k.val = k.val; omega

/-- A scale block at a point, entry (0, q): channel (t % 43)·256 + q of the gate scales … -/
theorem ag_block (c : Dev nD) (t : Fin cfg0.N) (q : Fin 256) (n : Fin 11008)
    (hn : n.val = t.val % 43 * 256 + q.val) :
    (iblk0 (F := Ideal) V c 3 t : S1x256.Idx → EReal) (ix2 (0 : Fin 1) q)
      = (V c main_v5 : S1x11008.Idx → EReal) (ix2 (0 : Fin 1) n) := by
  obtain ⟨-, -, -, -, -, -, e30, e31, -⟩ := blocks_at t
  unfold iblk0
  rw [View.read_apply]
  show V c main_v5 (((cfg0.win 3).blk t).view.emb (ix2 (0 : Fin 1) q)) = V c main_v5 (ix2 (0 : Fin 1) n)
  refine congrArg _ (funext fun a => Fin.ext ?_)
  match a with
  | ⟨0, _⟩ => show win0_3.index t (0 : Fin 2) * 1 + 1 * 0 = 0; omega
  | ⟨1, _⟩ => show win0_3.index t (1 : Fin 2) * 256 + 1 * q.val = n.val; omega

/-- … and of the up scales. -/
theorem au_block (c : Dev nD) (t : Fin cfg0.N) (q : Fin 256) (n : Fin 11008)
    (hn : n.val = t.val % 43 * 256 + q.val) :
    (iblk0 (F := Ideal) V c 4 t : S1x256.Idx → EReal) (ix2 (0 : Fin 1) q)
      = (V c main_v6 : S1x11008.Idx → EReal) (ix2 (0 : Fin 1) n) := by
  obtain ⟨-, -, -, -, -, -, -, -, e40, e41, -⟩ := blocks_at t
  unfold iblk0
  rw [View.read_apply]
  show V c main_v6 (((cfg0.win 4).blk t).view.emb (ix2 (0 : Fin 1) q)) = V c main_v6 (ix2 (0 : Fin 1) n)
  refine congrArg _ (funext fun a => Fin.ext ?_)
  match a with
  | ⟨0, _⟩ => show win0_4.index t (0 : Fin 2) * 1 + 1 * 0 = 0; omega
  | ⟨1, _⟩ => show win0_4.index t (1 : Fin 2) * 256 + 1 * q.val = n.val; omega

/-- The block formula is the inner activation as soon as each block entry it reads is the array entry the inner
    activation reads: the sums then run over the same products and the scales are the channel's. -/
theorem hidden_of_entries (x : S1024x4096.Idx → EReal) (wg wu : S256x4096.Idx → EReal) (ag au : S1x256.Idx → EReal)
    (X : S8192x4096.Idx → EReal) (Wg Wu : S11008x4096.Idx → EReal) (Ag Au : S1x11008.Idx → EReal)
    (p : Fin 1024) (q : Fin 256) (r : Fin 8192) (n : Fin 11008)
    (hx : ∀ k : Fin 4096, x (ix2 p k) = X (ix2 r k))
    (hwg : ∀ k : Fin 4096, wg (ix2 q k) = Wg (ix2 n k)) (hwu : ∀ k : Fin 4096, wu (ix2 q k) = Wu (ix2 n k))
    (hag : ag (ix2 (0 : Fin 1) q) = Ag (ix2 (0 : Fin 1) n)) (hau : au (ix2 (0 : Fin 1) q) = Au (ix2 (0 : Fin 1) n)) :
    (((∑ k : Fin 4096, x (ix2 p k) * wg (ix2 q k)) * ag (ix2 (0 : Fin 1) q))
        * Ideal.logistic ((∑ k : Fin 4096, x (ix2 p k) * wg (ix2 q k)) * ag (ix2 (0 : Fin 1) q)))
      * ((∑ k : Fin 4096, x (ix2 p k) * wu (ix2 q k)) * au (ix2 (0 : Fin 1) q))
      = Spec.hidden X Wg Wu Ag Au (ix2 r n) := by
  simp only [hx, hwg, hwu, hag, hau]
  rfl

/-- What a point stores at entry (p, q) of its block is the inner activation at row (t / 43)·1024 + p and
    channel (t % 43)·256 + q. -/
theorem stored_entry (c : Dev nD) (t : Fin cfg0.N) (p : Fin 1024) (q : Fin 256) (r : Fin 8192) (n : Fin 11008)
    (hr : r.val = t.val / 43 * 1024 + p.val) (hn : n.val = t.val % 43 * 256 + q.val) :
    k0_pay1 (F := Ideal) (iblk0 V c 0 t) (iblk0 V c 1 t) (iblk0 V c 2 t) (iblk0 V c 3 t) (iblk0 V c 4 t) (ix2 p q)
      = Spec.hidden (V c main_v1) (V c main_v2) (V c main_v3) (V c main_v5) (V c main_v6) (ix2 r n) :=
  (pay_apply (iblk0 V c 0 t) (iblk0 V c 1 t) (iblk0 V c 2 t) (iblk0 V c 3 t) (iblk0 V c 4 t) p q).trans
    (hidden_of_entries (iblk0 V c 0 t) (iblk0 V c 1 t) (iblk0 V c 2 t) (iblk0 V c 3 t) (iblk0 V c 4 t)
      (V c main_v1) (V c main_v2) (V c main_v3) (V c main_v5) (V c main_v6) p q r n
      (fun k => x_block V c t p k r hr) (fun k => wg_block V c t q k n hn) (fun k => wu_block V c t q k n hn)
      (ag_block V c t q n hn) (au_block V c t q n hn))

/-- What a point writes back is its block of the inner activation of the arrays the call finds. -/
theorem flushed_eq (c : Dev nD) (t : Fin cfg0.N) :
    (dat0 (F := Ideal) V c).flushed 5 t = ((cfg0.win 5).blk t).view.read (Elt Ideal)
      (Spec.hidden (V c main_v1) (V c main_v2) (V c main_v3) (V c main_v5) (V c main_v6)) := by
  show (cfg0.win 5).cut (grid0.coords t) ((dat0 (F := Ideal) V c).after 5 t) = _
  rw [after0_5]
  unfold out0_5
  rw [View.canon_unit_zero hz]
  simp only [View.ld_unit_zero (S := S1024x4096) hz, View.ld_unit_zero (S := S256x4096) hz, View.ld_unit_zero (S := S1x256) hz]
  obtain ⟨-, -, -, -, -, -, -, -, -, -, e50, e51⟩ := blocks_at t
  have ht := point_lt t
  funext j
  rw [View.read_apply]
  obtain ⟨p, q, rfl⟩ : ∃ (p : Fin 1024) (q : Fin 256), j = ix2 p q := ⟨j 0, j 1, eq_ix2 j⟩
  refine (stored_entry V c t p q ⟨t.val / 43 * 1024 + p.val, by omega⟩ ⟨t.val % 43 * 256 + q.val, by omega⟩ rfl rfl).trans ?_
  refine congrArg _ (funext fun a => Fin.ext ?_)
  match a with
  | ⟨0, _⟩ => show t.val / 43 * 1024 + p.val = win0_5.index t (0 : Fin 2) * 1024 + 1 * p.val; omega
  | ⟨1, _⟩ => show t.val % 43 * 256 + q.val = win0_5.index t (1 : Fin 2) * 256 + 1 * q.val; omega

/-- An entry of the result array is in a point's block iff each coordinate is in the block's range on its axis. -/
theorem mem_blk (t : Fin cfg0.N) (i : S8192x11008.Idx) :
    i ∈ ((cfg0.win 5).blk t).view.set ↔ ∀ a : Fin 2, win0_5.index t a * S1024x256.size a ≤ (i a).val
      ∧ (i a).val < win0_5.index t a * S1024x256.size a + S1024x256.size a := by
  show i ∈ ((View.whole main_v8).slice (win0_5.rect t)).set ↔ _
  rw [View.set_slice_whole, Rect.mem_set_unit]
  exact Iff.rfl

/-- Every entry (r, n) of the result array is written back by the point 43·(r / 1024) + n / 256. -/
theorem covered (i : S8192x11008.Idx) :
    ∃ t : Fin cfg0.N, (cfg0.win 5).flush t = true ∧ i ∈ ((cfg0.win 5).blk t).view.set := by
  have h0 : (i 0).val < 8192 := (i 0).isLt
  have h1 : (i 1).val < 11008 := (i 1).isLt
  have hN : cfg0.N = 344 := N_0
  let t : Fin cfg0.N := ⟨(i 0).val / 1024 * 43 + (i 1).val / 256, by rw [hN]; omega⟩
  have tv : t.val = (i 0).val / 1024 * 43 + (i 1).val / 256 := rfl
  obtain ⟨-, -, -, -, -, -, -, -, -, -, e50, e51⟩ := blocks_at t
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 256 ≤ (i 1).val ∧ (i 1).val < win0_5.index t (1 : Fin 2) * 256 + 256; omega

end Blocks

/-- Whatever the first call finds in its operand arrays, its result array ends holding `Spec.hidden` of them. -/
theorem hidden_array (V : (c : Dev nD) → (b : Ref sig .tc) → Buf (Elt Ideal) ((c : Thread nD τ).loc b)) (c : Dev nD) :
    (dat0 (F := Ideal) V c).arrAt 5 cfg0.N
      = Spec.hidden (V c main_v1) (V c main_v2) (V c main_v3) (V c main_v5) (V c main_v6) :=
  (dat0 (F := Ideal) V c).arrAt_eq_of_cover 5
    (Spec.hidden (V c main_v1) (V c main_v2) (V c main_v3) (V c main_v5) (V c main_v6))
    (fun t _ => flushed_eq V c t) covered

end Cert.KernelIdeal.GateUp

end
-- ==== Proof.DownBody.lean ====
/- What the down kernel's body leaves in its output block in each of its three control cases, and its payloads read at an entry. -/
import proofs.«155312_j63883343560961_2_alg».proof.Proof.Gen.KernelIdeal.Frame
import Idealize.ShloMosaic.Lib.Pipeline.Value
import Idealize.ShloMosaic.PureOps.Ideal.Laws
import Idealize.ShloMosaic.Lib.Tactic
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.DownBody

open Cert.KernelIdeal Cert.KernelIdeal.Gen

variable {F : FTy → Type} [FloatOps F]

/-- The zero offset pair, as a constant function. -/
private theorem hz : (![0, 0] : Fin 2 → Nat) = fun _ => 0 := funext fun a => by fin_cases a <;> rfl

/-- First point of a reduction run: the block is zeroed, then the point's product is added to it. -/
theorem out_reset (c : Dev nD) (i : grid1.Coords) (a3 : Memref sig .tc .vmem S2048x256 .f32) (h3 : a3.IsWhole)
    (a4 : Memref sig .tc .vmem S1024x256 .bf16) (h4 : a4.IsWhole) (a5 : Memref sig .tc .vmem S1x1024 .f32) (h5 : a5.IsWhole)
    (a6 : Memref sig .tc .vmem S2048x1024 .f32) (h6 : a6.IsWhole) (hc0 : cond1_0 i) (hc1 : ¬cond1_1 i)
    (x0 : Vec F S2048x256 .f32) (x1 : Vec F S1024x256 .bf16) (x2 : Vec F S1x1024 .f32) :
    out1_A_3 c i a3 h3 a4 h4 a5 h5 a6 h6 hc0 hc1 x0 x1 x2 = k1_pay2 x0 x1 (k1_pay1 (F := F)) := by
  unfold out1_A_3
  rw [View.read_writes_eq_canon _ _ _ (cover1_A_3 c i a3 h3 a4 h4 a5 h5 a6 h6 hc0 hc1 x0 x1 x2)]
  unfold kernelRun1_A
  dsimp only
  sl_unfold_words
  rw [View.canon_cons_unit_zero (S := S2048x1024) hz, View.readCov_unit_zero (S := S2048x1024) _ hz]
  simp only [View.readAt_eq_ld, h3.read_unread, h4.read_unread, View.ld_unit_zero (S := S2048x256) hz,
    View.ld_unit_zero (S := S1024x256) hz]

/-- A middle point: the point's product is added to what the block held. -/
theorem out_step (c : Dev nD) (i : grid1.Coords) (a3 : Memref sig .tc .vmem S2048x256 .f32) (h3 : a3.IsWhole)
    (a4 : Memref sig .tc .vmem S1024x256 .bf16) (h4 : a4.IsWhole) (a5 : Memref sig .tc .vmem S1x1024 .f32) (h5 : a5.IsWhole)
    (a6 : Memref sig .tc .vmem S2048x1024 .f32) (h6 : a6.IsWhole) (hc0 : ¬cond1_0 i) (hc1 : ¬cond1_1 i)
    (x0 : Vec F S2048x256 .f32) (x1 : Vec F S1024x256 .bf16) (x2 : Vec F S1x1024 .f32) (xo : Vec F S2048x1024 .f32) :
    out1_B_3 c i a3 h3 a4 h4 a5 h5 a6 h6 hc0 hc1 x0 x1 x2 xo = k1_pay2 x0 x1 xo := by
  unfold out1_B_3
  rw [View.read_writes_eq_canon _ _ _ (cover1_B_3 c i a3 h3 a4 h4 a5 h5 a6 h6 hc0 hc1 x0 x1 x2 xo)]
  unfold kernelRun1_B
  dsimp only
  rw [View.canon_unit_zero (S := S2048x1024) hz]
  simp only [View.readAt_eq_ld, h3.read_unread, h4.read_unread, h6.read_unread, View.ld_unit_zero (S := S2048x256) hz,
    View.ld_unit_zero (S := S1024x256) hz, View.ld_unit_zero (S := S2048x1024) hz]

/-- Last point of a run: the product is added, then the block is scaled by the channel scales. -/
theorem out_last (c : Dev nD) (i : grid1.Coords) (a3 : Memref sig .tc .vmem S2048x256 .f32) (h3 : a3.IsWhole)
    (a4 : Memref sig .tc .vmem S1024x256 .bf16) (h4 : a4.IsWhole) (a5 : Memref sig .tc .vmem S1x1024 .f32) (h5 : a5.IsWhole)
    (a6 : Memref sig .tc .vmem S2048x1024 .f32) (h6 : a6.IsWhole) (hc0 : ¬cond1_0 i) (hc1 : cond1_1 i)
    (x0 : Vec F S2048x256 .f32) (x1 : Vec F S1024x256 .bf16) (x2 : Vec F S1x1024 .f32) (xo : Vec F S2048x1024 .f32) :
    out1_C_3 c i a3 h3 a4 h4 a5 h5 a6 h6 hc0 hc1 x0 x1 x2 xo = k1_pay3 (k1_pay2 x0 x1 xo) x2 := by
  unfold out1_C_3
  rw [View.read_writes_eq_canon _ _ _ (cover1_C_3 c i a3 h3 a4 h4 a5 h5 a6 h6 hc0 hc1 x0 x1 x2 xo)]
  unfold kernelRun1_C
  dsimp only
  sl_unfold_words
  rw [View.canon_cons_unit_zero (S := S2048x1024) hz, View.readCov_unit_zero (S := S2048x1024) _ hz]
  simp only [View.readAt_eq_ld, h3.read_unread, h4.read_unread, h5.read_unread, h6.read_unread,
    View.ld_unit_zero (S := S2048x256) hz, View.ld_unit_zero (S := S1024x256) hz, View.ld_unit_zero (S := S1x1024) hz,
    View.ld_unit_zero (S := S2048x1024) hz]

/-- The zero block is zero at every entry. -/
theorem pay1_apply (j : S2048x1024.Idx) : k1_pay1 (F := Ideal) j = 0 := by
  unfold k1_pay1
  exact Ideal.ofBits_zero_f32

/-- The product's left operand is read at the output entry's row: axis 0 of the left operand is kept. -/
private theorem lhs_keep (j : S2048x1024.Idx) (r : dot_S2048x256_S1024x256_S2048x1024_1_1_0_0_n_n.contr.Idx) :
    (dot_S2048x256_S1024x256_S2048x1024_1_1_0_0_n_n.lhsIdx j r 0).val = (j 0).val := by
  unfold DotDims.lhsIdx
  rw [dif_neg (show ¬(0 : Fin S2048x256.rank) ∈ dot_S2048x256_S1024x256_S2048x1024_1_1_0_0_n_n.lhsBatch by decide),
    dif_pos (show (0 : Fin S2048x256.rank) ∈ dot_S2048x256_S1024x256_S2048x1024_1_1_0_0_n_n.lhsNonContracting by decide)]
  rfl

/-- The product's right operand is read at the output entry's column: axis 0 of the right operand is kept. -/
private theorem rhs_keep (j : S2048x1024.Idx) (r : dot_S2048x256_S1024x256_S2048x1024_1_1_0_0_n_n.contr.Idx) :
    (dot_S2048x256_S1024x256_S2048x1024_1_1_0_0_n_n.rhsIdx j r 0).val = (j 1).val := by
  unfold DotDims.rhsIdx
  rw [dif_neg (show ¬(0 : Fin S1024x256.rank) ∈ dot_S2048x256_S1024x256_S2048x1024_1_1_0_0_n_n.rhsBatch by decide),
    dif_pos (show (0 : Fin S1024x256.rank) ∈ dot_S2048x256_S1024x256_S2048x1024_1_1_0_0_n_n.rhsNonContracting by decide)]
  rfl

/-- The accumulating payload at entry (p, q): the old entry plus row p of the activations against row q of the weights. -/
theorem pay2_apply (x0 : FVec Ideal S2048x256 .f32) (x1 : FVec Ideal S1024x256 .bf16) (acc : FVec Ideal S2048x1024 .f32)
    (p : Fin 2048) (q : Fin 1024) :
    k1_pay2 (F := Ideal) x0 x1 acc (ix2 p q) = acc (ix2 p q) + ∑ k : Fin 256, x0 (ix2 p k) * x1 (ix2 q k) := by
  unfold k1_pay2
  -- the sum of the old block (a cast to its own shape) and the product block, read at the entry
  refine (addf_apply _ _ _).trans ?_
  refine congrArg₂ (· + ·) (congrFun (shapeCast_self acc shapeCasts_S2048x1024_S2048x1024) (ix2 p q)) ?_
  -- a matmul into the zero constant is the sum over the contraction index of the operands' products
  refine (Ideal.matmul_constant_zero_apply dot_S2048x256_S1024x256_S2048x1024_1_1_0_0_n_n none _ _ (ix2 p q)).trans ?_
  -- re-index the one-axis contraction by its coordinate
  rw [← Equiv.sum_comp (contrEquiv1 dot_S2048x256_S1024x256_S2048x1024_1_1_0_0_n_n 256 rfl rfl).symm]
  refine Finset.sum_congr rfl fun k _ => ?_
  have hk := contrEquiv1_symm_val dot_S2048x256_S1024x256_S2048x1024_1_1_0_0_n_n 256 rfl rfl k
  -- the left operand is read at (p, k): axis 0 is kept, axis 1 is contracted
  have el : dot_S2048x256_S1024x256_S2048x1024_1_1_0_0_n_n.lhsIdx (ix2 p q)
      ((contrEquiv1 dot_S2048x256_S1024x256_S2048x1024_1_1_0_0_n_n 256 rfl rfl).symm k) = ix2 p k :=
    funext fun a => Fin.ext (by
      match a with
      | ⟨0, _⟩ => exact lhs_keep (ix2 p q) _
      | ⟨1, _⟩ => exact (dot_S2048x256_S1024x256_S2048x1024_1_1_0_0_n_n.lhsIdx_val_of_single rfl (ix2 p q) _).trans hk)
  -- the right operand is read at (q, k): axis 0 is kept, axis 1 is contracted
  have er : dot_S2048x256_S1024x256_S2048x1024_1_1_0_0_n_n.rhsIdx (ix2 p q)
      ((contrEquiv1 dot_S2048x256_S1024x256_S2048x1024_1_1_0_0_n_n 256 rfl rfl).symm k) = ix2 q k :=
    funext fun a => Fin.ext (by
      match a with
      | ⟨0, _⟩ => exact rhs_keep (ix2 p q) _
      | ⟨1, _⟩ => exact (dot_S2048x256_S1024x256_S2048x1024_1_1_0_0_n_n.rhsIdx_val_of_single rfl (ix2 p q) _).trans hk)
  rw [el, er]
  -- the change of format is the identity on extended reals, and both casts are to the operand's own shape
  refine congrArg₂ (· * ·) ?_ (congrFun (shapeCast_self x1 shapeCasts_S1024x256_S1024x256) (ix2 q k))
  exact (truncf_apply _ bitsLt_bf16_f32 (ix2 p k)).trans (congrFun (shapeCast_self x0 shapeCasts_S2048x256_S2048x256) (ix2 p k))

/-- The scaling payload at entry (p, q): the entry times channel q's scale. -/
theorem pay3_apply (acc : FVec Ideal S2048x1024 .f32) (x2 : FVec Ideal S1x1024 .f32) (p : Fin 2048) (q : Fin 1024) :
    k1_pay3 (F := Ideal) acc x2 (ix2 p q) = acc (ix2 p q) * x2 (ix2 (0 : Fin 1) q) := by
  unfold k1_pay3
  -- the product of the block (a cast to its own shape) and the broadcast scales, read at the entry
  refine (mulf_apply _ _ _).trans ?_
  refine congrArg₂ (· * ·) (congrFun (shapeCast_self acc shapeCasts_S2048x1024_S2048x1024) (ix2 p q)) ?_
  -- the broadcast along the rows reads the scales at row 0 and the entry's column
  refine (broadcastTo_apply _ broadcasts_S1x1024_S2048x1024 (ix2 p q) (ix2 (0 : Fin 1) q) (fun a => ?_)).trans
    (congrFun (shapeCast_self x2 shapeCasts_S1x1024_S1x1024) (ix2 (0 : Fin 1) q))
  match a with
  | ⟨0, _⟩ => show (0 : Nat) = if (1 : Nat) = 1 then 0 else p.val; rw [if_pos rfl]
  | ⟨1, _⟩ => show q.val = if (1024 : Nat) = 1 then 0 else q.val; rw [if_neg (by decide)]

end Cert.KernelIdeal.DownBody

end
-- ==== Proof.LibRangeRuns.lean ====
/-
  A sum over consecutive natural numbers, taken run by run.

  The sum of `F` over the first `a · b` naturals is the sum, over the `a` consecutive runs of length `b`, of the sums
  of `F` over each run: `∑_{s < a} ∑_{j < b} F (b·s + j) = ∑_{n < a·b} F n`, in any additive commutative monoid.  A
  reduction that a program walks in equal consecutive chunks, adding each chunk's partial sum into an accumulator,
  is regrouped into the one sum by this.
-/
import Mathlib.Algebra.BigOperators.Intervals

open scoped BigOperators

namespace Cert.LibRangeRuns

/-- A sum over `a · b` consecutive naturals is the sum over its `a` consecutive runs of length `b`. -/
theorem sum_range_runs {β : Type*} [AddCommMonoid β] (b : ℕ) (F : ℕ → β) :
    ∀ a : ℕ, ∑ s ∈ Finset.range a, ∑ j ∈ Finset.range b, F (b * s + j) = ∑ n ∈ Finset.range (a * b), F n
  | 0 => by simp
  | a + 1 => by
    rw [Finset.sum_range_succ, sum_range_runs b F a, Nat.succ_mul, Finset.sum_range_add, Nat.mul_comm b a]

/-- The same with each run indexed by `Fin b`. -/
theorem sum_range_runs_fin {β : Type*} [AddCommMonoid β] (a b : ℕ) (F : ℕ → β) :
    ∑ s ∈ Finset.range a, ∑ j : Fin b, F (b * s + j.val) = ∑ n ∈ Finset.range (a * b), F n := by
  rw [← sum_range_runs b F a]
  exact Finset.sum_congr rfl fun s _ => Fin.sum_univ_eq_sum_range (fun j => F (b * s + j)) b

end Cert.LibRangeRuns
-- ==== Proof.DownArray.lean ====
/-
  The second call's result array, after the run, is the down projection of the arrays the call finds.

  The call walks a grid of 4 × 4 × 43 points, t = 172·i + 43·j + k.  At point t it sees the block (i, k) of the inner
  activation (2048 rows, 256 columns), the block (j, k) of the down weights (1024 rows, 256 columns), the block (0, j) of
  the channel scales, and keeps ONE result block (i, j) of 2048 × 1024 entries across the 43 points of a run k = 0 … 42:
  the block is zeroed at k = 0, every point adds the product of its two blocks over its 256 columns, and the last point
  k = 42 multiplies the block by the channel scales and writes it back.  So after the point 43·b + k (k ≤ 41) entry (p, q)
  of the block holds Σ_{s ≤ k} Σ_{kk < 256} h[2048·i + p, 256·s + kk] · wd[1024·j + q, 256·s + kk], by induction on the
  point; after the last point of the run it holds that sum over all 43 points, which is the sum over the 43·256 = 11008
  columns taken run by run, times ad[0, 1024·j + q]: the entry (2048·i + p, 1024·j + q) of the down projection.  The 16
  result blocks tile the result array.  Only commutativity and associativity of the sum are used, so nothing is asked
  of the entries (they may be infinite).
-/
import proofs.«155312_j63883343560961_2_alg».proof.Proof.Spec
import proofs.«155312_j63883343560961_2_alg».proof.Proof.Gen.KernelIdeal.Frame
import proofs.«155312_j63883343560961_2_alg».proof.Proof.DownBody
import proofs.«155312_j63883343560961_2_alg».proof.Proof.LibRangeRuns
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Down

open Cert.KernelIdeal Cert.KernelIdeal.Gen

/-- The printed index maps in closed form over the 688 points t = 172·i + 43·j + k of the grid [4, 4, 43]: the
    activation block sits at (i, k), the weight block at (j, k), the scale block at (0, j), the result block at (i, j). -/
theorem idx_facts : ∀ t : Fin cfg1.N, win1_0.index t 0 = t.val / 172 ∧ win1_0.index t 1 = t.val % 43
    ∧ win1_1.index t 0 = t.val / 43 % 4 ∧ win1_1.index t 1 = t.val % 43
    ∧ win1_2.index t 0 = 0 ∧ win1_2.index t 1 = t.val / 43 % 4
    ∧ win1_3.index t 0 = t.val / 172 ∧ win1_3.index t 1 = t.val / 43 % 4 :=
  (by decide +kernel : ∀ t : Fin grid1.N, _)

variable (V : (c : Dev nD) → (b : Ref sig .tc) → Buf (Elt Ideal) ((c : Thread nD τ).loc b)) (c : Dev nD)

/-- An entry of the activation block at point t is the entry of the activations at row 2048·i + p, column 256·k + kk. -/
theorem blk0_apply (t : Fin cfg1.N) (p : Fin 2048) (kk : Fin 256) (R : Fin 8192) (K : Fin 11008)
    (hR : R.val = 2048 * (t.val / 172) + p.val) (hK : K.val = 256 * (t.val % 43) + kk.val) :
    iblk1 (F := Ideal) V c 0 t (ix2 p kk) = V c main_v8 (ix2 R K) := by
  obtain ⟨e0, e1, -⟩ := idx_facts t
  unfold iblk1
  rw [View.read_apply]
  show V c main_v8 (((cfg1.win 0).blk t).view.emb (ix2 p kk)) = V c main_v8 (ix2 R K)
  refine congrArg (V c main_v8) ?_
  funext a
  apply Fin.ext
  match a with
  | ⟨0, _⟩ => show win1_0.index t 0 * 2048 + 1 * p.val = R.val; rw [e0, hR]; omega
  | ⟨1, _⟩ => show win1_0.index t 1 * 256 + 1 * kk.val = K.val; rw [e1, hK]; omega

/-- An entry of the weight block at point t is the entry of the down weights at row 1024·j + q, column 256·k + kk. -/
theorem blk1_apply (t : Fin cfg1.N) (q : Fin 1024) (kk : Fin 256) (C : Fin 4096) (K : Fin 11008)
    (hC : C.val = 1024 * (t.val / 43 % 4) + q.val) (hK : K.val = 256 * (t.val % 43) + kk.val) :
    iblk1 (F := Ideal) V c 1 t (ix2 q kk) = V c main_v4 (ix2 C K) := by
  obtain ⟨-, -, e0, e1, -⟩ := idx_facts t
  unfold iblk1
  rw [View.read_apply]
  show V c main_v4 (((cfg1.win 1).blk t).view.emb (ix2 q kk)) = V c main_v4 (ix2 C K)
  refine congrArg (V c main_v4) ?_
  funext a
  apply Fin.ext
  match a with
  | ⟨0, _⟩ => show win1_1.index t 0 * 1024 + 1 * q.val = C.val; rw [e0, hC]; omega
  | ⟨1, _⟩ => show win1_1.index t 1 * 256 + 1 * kk.val = K.val; rw [e1, hK]; omega

/-- An entry of the scale block at point t is the scale of channel 1024·j + q. -/
theorem blk2_apply (t : Fin cfg1.N) (q : Fin 1024) (C : Fin 4096)
    (hC : C.val = 1024 * (t.val / 43 % 4) + q.val) :
    iblk1 (F := Ideal) V c 2 t (ix2 (0 : Fin 1) q) = V c main_v7 (ix2 (0 : Fin 1) C) := by
  obtain ⟨-, -, -, -, e0, e1, -⟩ := idx_facts t
  unfold iblk1
  rw [View.read_apply]
  show V c main_v7 (((cfg1.win 2).blk t).view.emb (ix2 (0 : Fin 1) q)) = V c main_v7 (ix2 (0 : Fin 1) C)
  refine congrArg (V c main_v7) ?_
  funext a
  apply Fin.ext
  match a with
  | ⟨0, _⟩ => show win1_2.index t 0 * 1 + 1 * 0 = 0; rw [e0]
  | ⟨1, _⟩ => show win1_2.index t 1 * 1024 + 1 * q.val = C.val; rw [e1, hC]; omega

/-- Column n of the long reduction axis, as a function of every natural: row R of the activations times row C of the
    down weights at column n, and zero past the axis' 11008 columns. -/
def term (h : S8192x11008.Idx → EReal) (wd : S4096x11008.Idx → EReal) (R : Fin 8192) (C : Fin 4096) (n : ℕ) : EReal :=
  if hn : n < 11008 then h (ix2 R ⟨n, hn⟩) * wd (ix2 C ⟨n, hn⟩) else 0

/-- The product a point adds at entry (p, q) of its block: the 256 columns 256·k … 256·k + 255 of row R against row C. -/
theorem point_sum (t : Fin cfg1.N) (k : ℕ) (hk : t.val % 43 = k)
    (x0 : FVec Ideal S2048x256 .f32) (x1 : FVec Ideal S1024x256 .bf16)
    (hx0 : x0 = iblk1 (F := Ideal) V c 0 t) (hx1 : x1 = iblk1 (F := Ideal) V c 1 t)
    (p : Fin 2048) (q : Fin 1024) (R : Fin 8192) (C : Fin 4096)
    (hR : R.val = 2048 * (t.val / 172) + p.val) (hC : C.val = 1024 * (t.val / 43 % 4) + q.val) :
    (∑ kk : Fin 256, x0 (ix2 p kk) * x1 (ix2 q kk))
      = ∑ kk : Fin 256, term (V c main_v8) (V c main_v4) R C (256 * k + kk.val) := by
  subst hx0 hx1 hk
  refine Finset.sum_congr rfl fun kk _ => ?_
  have hk : 256 * (t.val % 43) + kk.val < 11008 := by have := kk.isLt; omega
  unfold term
  rw [dif_pos hk, blk0_apply V c t p kk R ⟨_, hk⟩ hR rfl, blk1_apply V c t q kk C ⟨_, hk⟩ hC rfl]

/-- At the first point of a run the block holds the zero block plus the point's product. -/
theorem at_reset (n : ℕ) (hn : n < cfg1.N) (h0 : n % 43 = 0) (h1 : ¬n % 43 = 42) :
    outsAt1 (F := Ideal) V c n hn = k1_pay2 (iblk1 V c 0 ⟨n, hn⟩) (iblk1 V c 1 ⟨n, hn⟩) (k1_pay1 (F := Ideal)) :=
  (outsAt1_A V c ⟨n, hn⟩ h0 h1).trans
    (DownBody.out_reset (F := Ideal) c (grid1.coords ⟨n, hn⟩) (ms1_0 ⟨n, hn⟩) (hs1_0 ⟨n, hn⟩) (ms1_1 ⟨n, hn⟩) (hs1_1 ⟨n, hn⟩)
      (ms1_2 ⟨n, hn⟩) (hs1_2 ⟨n, hn⟩) (ms1_3 ⟨n, hn⟩) (hs1_3 ⟨n, hn⟩)
      ((hcond1_0 ⟨n, hn⟩).mpr h0) (fun h => h1 ((hcond1_1 ⟨n, hn⟩).mp h))
      (iblk1 V c 0 ⟨n, hn⟩) (iblk1 V c 1 ⟨n, hn⟩) (iblk1 V c 2 ⟨n, hn⟩))

/-- At a middle point the block holds what the point before left plus the point's product. -/
theorem at_step (n : ℕ) (hn : n + 1 < cfg1.N) (h0 : ¬(n + 1) % 43 = 0) (h1 : ¬(n + 1) % 43 = 42) :
    outsAt1 (F := Ideal) V c (n + 1) hn
      = k1_pay2 (iblk1 V c 0 ⟨n + 1, hn⟩) (iblk1 V c 1 ⟨n + 1, hn⟩) (outsAt1 (F := Ideal) V c n (Nat.lt_of_succ_lt hn)) :=
  (outsAt1_B V c ⟨n + 1, hn⟩ h0 h1).trans
    (DownBody.out_step (F := Ideal) c (grid1.coords ⟨n + 1, hn⟩) (ms1_0 ⟨n + 1, hn⟩) (hs1_0 ⟨n + 1, hn⟩) (ms1_1 ⟨n + 1, hn⟩) (hs1_1 ⟨n + 1, hn⟩)
      (ms1_2 ⟨n + 1, hn⟩) (hs1_2 ⟨n + 1, hn⟩) (ms1_3 ⟨n + 1, hn⟩) (hs1_3 ⟨n + 1, hn⟩)
      (fun h => h0 ((hcond1_0 ⟨n + 1, hn⟩).mp h)) (fun h => h1 ((hcond1_1 ⟨n + 1, hn⟩).mp h))
      (iblk1 V c 0 ⟨n + 1, hn⟩) (iblk1 V c 1 ⟨n + 1, hn⟩) (iblk1 V c 2 ⟨n + 1, hn⟩)
      (outsAt1 (F := Ideal) V c n (Nat.lt_of_succ_lt hn)))

/-- At the last point of a run the block holds that, scaled by the channel scales. -/
theorem at_last (n : ℕ) (hn : n + 1 < cfg1.N) (h0 : ¬(n + 1) % 43 = 0) (h1 : (n + 1) % 43 = 42) :
    outsAt1 (F := Ideal) V c (n + 1) hn
      = k1_pay3 (k1_pay2 (iblk1 V c 0 ⟨n + 1, hn⟩) (iblk1 V c 1 ⟨n + 1, hn⟩) (outsAt1 (F := Ideal) V c n (Nat.lt_of_succ_lt hn)))
          (iblk1 V c 2 ⟨n + 1, hn⟩) :=
  (outsAt1_C V c ⟨n + 1, hn⟩ h0 h1).trans
    (DownBody.out_last (F := Ideal) c (grid1.coords ⟨n + 1, hn⟩) (ms1_0 ⟨n + 1, hn⟩) (hs1_0 ⟨n + 1, hn⟩) (ms1_1 ⟨n + 1, hn⟩) (hs1_1 ⟨n + 1, hn⟩)
      (ms1_2 ⟨n + 1, hn⟩) (hs1_2 ⟨n + 1, hn⟩) (ms1_3 ⟨n + 1, hn⟩) (hs1_3 ⟨n + 1, hn⟩)
      (fun h => h0 ((hcond1_0 ⟨n + 1, hn⟩).mp h)) ((hcond1_1 ⟨n + 1, hn⟩).mpr h1)
      (iblk1 V c 0 ⟨n + 1, hn⟩) (iblk1 V c 1 ⟨n + 1, hn⟩) (iblk1 V c 2 ⟨n + 1, hn⟩)
      (outsAt1 (F := Ideal) V c n (Nat.lt_of_succ_lt hn)))

/-- The running sum: after point n = 43·b + k with k ≤ 41, entry (p, q) of the block holds the columns 0 … 256·(k + 1) − 1
    of row R of the activations against row C of the down weights, taken 256 columns per point. -/
theorem acc_eq : ∀ (n : ℕ) (hn : n < cfg1.N), ¬n % 43 = 42 → ∀ (p : Fin 2048) (q : Fin 1024) (R : Fin 8192) (C : Fin 4096),
    R.val = 2048 * (n / 172) + p.val → C.val = 1024 * (n / 43 % 4) + q.val →
    (outsAt1 (F := Ideal) V c n hn : FVec Ideal S2048x1024 .f32) (ix2 p q)
      = ∑ s ∈ Finset.range (n % 43 + 1), ∑ kk : Fin 256, term (V c main_v8) (V c main_v4) R C (256 * s + kk.val)
  | 0, hn, h42, p, q, R, C, hR, hC => by
    rw [at_reset V c 0 hn rfl h42,
      DownBody.pay2_apply (iblk1 V c 0 ⟨0, hn⟩) (iblk1 V c 1 ⟨0, hn⟩) (k1_pay1 (F := Ideal)) p q,
      DownBody.pay1_apply, zero_add,
      point_sum V c ⟨0, hn⟩ 0 rfl (iblk1 V c 0 ⟨0, hn⟩) (iblk1 V c 1 ⟨0, hn⟩) rfl rfl p q R C hR hC]
    show _ = ∑ s ∈ Finset.range 1, ∑ kk : Fin 256, term (V c main_v8) (V c main_v4) R C (256 * s + kk.val)
    rw [Finset.sum_range_one]
  | n + 1, hn, h42, p, q, R, C, hR, hC => by
    have hN : n + 1 < 688 := lt_of_lt_of_eq hn N_1
    by_cases h0 : (n + 1) % 43 = 0
    · rw [at_reset V c (n + 1) hn h0 h42,
        DownBody.pay2_apply (iblk1 V c 0 ⟨n + 1, hn⟩) (iblk1 V c 1 ⟨n + 1, hn⟩) (k1_pay1 (F := Ideal)) p q,
        DownBody.pay1_apply, zero_add,
        point_sum V c ⟨n + 1, hn⟩ 0 h0 (iblk1 V c 0 ⟨n + 1, hn⟩) (iblk1 V c 1 ⟨n + 1, hn⟩) rfl rfl p q R C hR hC, h0]
      show _ = ∑ s ∈ Finset.range 1, ∑ kk : Fin 256, term (V c main_v8) (V c main_v4) R C (256 * s + kk.val)
      rw [Finset.sum_range_one]
    · have e : (n + 1) % 43 = n % 43 + 1 := by omega
      rw [at_step V c n hn h0 h42,
        DownBody.pay2_apply (iblk1 V c 0 ⟨n + 1, hn⟩) (iblk1 V c 1 ⟨n + 1, hn⟩) (outsAt1 (F := Ideal) V c n (Nat.lt_of_succ_lt hn)) p q,
        acc_eq n (Nat.lt_of_succ_lt hn) (by omega) p q R C (by omega) (by omega),
        point_sum V c ⟨n + 1, hn⟩ (n % 43 + 1) e (iblk1 V c 0 ⟨n + 1, hn⟩) (iblk1 V c 1 ⟨n + 1, hn⟩) rfl rfl p q R C hR hC,
        e, Finset.sum_range_succ _ (n % 43 + 1)]

/-- After the last point n = 43·b + 42 of a run, entry (p, q) of the block holds all 11008 columns of row R against row C,
    taken 256 columns per point, times the scale of channel C. -/
theorem last_eq (n : ℕ) (hn : n < cfg1.N) (h42 : n % 43 = 42) (p : Fin 2048) (q : Fin 1024) (R : Fin 8192) (C : Fin 4096)
    (hR : R.val = 2048 * (n / 172) + p.val) (hC : C.val = 1024 * (n / 43 % 4) + q.val) :
    (outsAt1 (F := Ideal) V c n hn : FVec Ideal S2048x1024 .f32) (ix2 p q)
      = (∑ s ∈ Finset.range 43, ∑ kk : Fin 256, term (V c main_v8) (V c main_v4) R C (256 * s + kk.val))
          * V c main_v7 (ix2 (0 : Fin 1) C) := by
  obtain ⟨n, rfl⟩ : ∃ n', n = n' + 1 := ⟨n - 1, by omega⟩
  have hN : n + 1 < 688 := lt_of_lt_of_eq hn N_1
  have e : n % 43 = 41 := by omega
  rw [at_last V c n hn (by omega) h42,
    DownBody.pay3_apply _ (iblk1 V c 2 ⟨n + 1, hn⟩) p q,
    DownBody.pay2_apply (iblk1 V c 0 ⟨n + 1, hn⟩) (iblk1 V c 1 ⟨n + 1, hn⟩) (outsAt1 (F := Ideal) V c n (Nat.lt_of_succ_lt hn)) p q,
    acc_eq V c n (Nat.lt_of_succ_lt hn) (by omega) p q R C (by omega) (by omega),
    point_sum V c ⟨n + 1, hn⟩ 42 h42 (iblk1 V c 0 ⟨n + 1, hn⟩) (iblk1 V c 1 ⟨n + 1, hn⟩) rfl rfl p q R C hR hC,
    blk2_apply V c ⟨n + 1, hn⟩ q C hC, e, ← Finset.sum_range_succ _ 42]

/-- All 11008 columns of a row product, taken as 43 consecutive runs of 256 columns. -/
theorem sum_runs (h : S8192x11008.Idx → EReal) (wd : S4096x11008.Idx → EReal) (R : Fin 8192) (C : Fin 4096) :
    ∑ i : Fin 11008, h (ix2 R i) * wd (ix2 C i)
      = ∑ s ∈ Finset.range 43, ∑ kk : Fin 256, term h wd R C (256 * s + kk.val) := by
  rw [Cert.LibRangeRuns.sum_range_runs_fin 43 256 (term h wd R C)]
  show _ = ∑ n ∈ Finset.range 11008, term h wd R C n
  rw [← Fin.sum_univ_eq_sum_range]
  refine Finset.sum_congr rfl fun i _ => ?_
  unfold term
  rw [dif_pos i.isLt]

/-- What the last point of a run writes back is its block of the down projection: entry (p, q) of block (i, j) is the
    entry (2048·i + p, 1024·j + q) of the result. -/
theorem flushed_eq (t : Fin cfg1.N) (hf : (cfg1.win 3).flush t = true) :
    (dat1 (F := Ideal) V c).flushed 3 t
      = ((cfg1.win 3).blk t).view.read (Elt Ideal) (Spec.down (V c main_v8) (V c main_v4) (V c main_v7)) := by
  have h42 : t.val % 43 = 42 := (flush1_3 t).mp hf
  have hN : t.val < 688 := lt_of_lt_of_eq t.isLt N_1
  obtain ⟨-, -, -, -, -, -, e0, e1⟩ := idx_facts t
  show (cfg1.win 3).cut (grid1.coords t) ((dat1 (F := Ideal) V c).after 3 t) = _
  rw [after1_3]
  funext y
  obtain ⟨p, q, rfl⟩ : ∃ (p : Fin 2048) (q : Fin 1024), y = ix2 p q := ⟨y 0, y 1, eq_ix2 y⟩
  have hp := p.isLt
  have hq := q.isLt
  obtain ⟨R, hR⟩ : ∃ R : Fin 8192, R.val = 2048 * (t.val / 172) + p.val := ⟨⟨_, by omega⟩, rfl⟩
  obtain ⟨C, hC⟩ : ∃ C : Fin 4096, C.val = 1024 * (t.val / 43 % 4) + q.val := ⟨⟨_, by omega⟩, rfl⟩
  show (outsAt1 (F := Ideal) V c t.val t.isLt : FVec Ideal S2048x1024 .f32) (ix2 p q)
    = Spec.down (V c main_v8) (V c main_v4) (V c main_v7) (((cfg1.win 3).blk t).view.emb (ix2 p q))
  have hemb : ((cfg1.win 3).blk t).view.emb (ix2 p q) = ix2 R C := by
    funext a
    apply Fin.ext
    match a with
    | ⟨0, _⟩ => show win1_3.index t 0 * 2048 + 1 * p.val = R.val; rw [e0, hR]; omega
    | ⟨1, _⟩ => show win1_3.index t 1 * 1024 + 1 * q.val = C.val; rw [e1, hC]; omega
  rw [hemb, last_eq V c t.val t.isLt h42 p q R C hR hC]
  rw [← sum_runs (V c main_v8) (V c main_v4) R C]
  rfl

/-- Every entry (r, n) of the result lies in the block the run (r / 2048, n / 1024) writes back at its last point. -/
theorem cover (i : ((cfg1.win 3).arr.view.loc (c.tc : Thread nD τ)).2.ty.Idx) :
    ∃ t : Fin cfg1.N, (cfg1.win 3).flush t = true ∧ i ∈ ((cfg1.win 3).blk t).view.set := by
  have h0 : (i 0 : Nat) < 8192 := (i 0).isLt
  have h1 : (i 1 : Nat) < 4096 := (i 1).isLt
  obtain ⟨t, ht⟩ : ∃ t : Fin cfg1.N, t.val = 172 * ((i 0 : Nat) / 2048) + 43 * ((i 1 : Nat) / 1024) + 42 :=
    ⟨⟨172 * ((i 0 : Nat) / 2048) + 43 * ((i 1 : Nat) / 1024) + 42, by rw [show cfg1.N = 688 from N_1]; omega⟩, rfl⟩
  obtain ⟨-, -, -, -, -, -, e0, e1⟩ := idx_facts t
  refine ⟨t, (flush1_3 t).mpr (by omega), ?_⟩
  show i ∈ ((View.whole main_v9).slice (win1_3.rect t)).set
  rw [View.set_slice_whole, Rect.mem_set_unit]
  intro a
  match a with
  | ⟨0, _⟩ =>
    show win1_3.index t 0 * 2048 ≤ (i 0 : Nat) ∧ (i 0 : Nat) < win1_3.index t 0 * 2048 + 2048
    rw [e0]; omega
  | ⟨1, _⟩ =>
    show win1_3.index t 1 * 1024 ≤ (i 1 : Nat) ∧ (i 1 : Nat) < win1_3.index t 1 * 1024 + 1024
    rw [e1]; omega

/-- Whatever the second call finds in its operand arrays, its result array ends holding `Spec.down` of them. -/
theorem down_array (V : (c : Dev nD) → (b : Ref sig .tc) → Buf (Elt Ideal) ((c : Thread nD τ).loc b)) (c : Dev nD) :
    (dat1 (F := Ideal) V c).arrAt 3 cfg1.N
      = Spec.down (V c main_v8) (V c main_v4) (V c main_v7) :=
  (dat1 (F := Ideal) V c).arrAt_eq_of_cover 3 (Spec.down (V c main_v8) (V c main_v4) (V c main_v7))
    (flushed_eq V c) (cover c)

end Cert.KernelIdeal.Down

end
-- ==== Proof.Run.lean ====
/-
  The kernel program's run, read for its values.

  The program is a stretch of host operations (a reshape of the activations, changes of float format, reshapes of the
  three scale vectors to one-row matrices), the gate/up call, the down call, and a last reshape. The run walks these
  four segments from the launch memory; at the return every unscoped buffer holds what the fold through the segments
  leaves in it (`run_all`). Read at the result buffer, and at `F := Ideal` where a change of float format is the
  identity, that fold is the last reshape of the down projection (`Spec.down`) of the inner activation (`Spec.hidden`)
  of the reshaped activations and the weight arrays, each read back to the launch memory (`result_eq`).
-/
import proofs.«155312_j63883343560961_2_alg».proof.Proof.Gen.KernelIdeal.Frame
import proofs.«155312_j63883343560961_2_alg».proof.Proof.Spec
import proofs.«155312_j63883343560961_2_alg».proof.Proof.HiddenArray
import proofs.«155312_j63883343560961_2_alg».proof.Proof.DownArray
import Idealize.ShloMosaic.Lib.StableHlo.Run

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates without a fault, and at the return every unscoped
    buffer of every core holds the fold of the four segments through the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Run

/-! ## The values -/

/-- The program's result as one function of its seven argument arrays: the activations viewed as 8192 rows, the scale
    vectors as one-row matrices, the inner activation, its down projection, viewed again as [4, 2048, 4096]. -/
def value (x0 : S4x2048x4096.Idx → EReal) (x1 x2 : S11008x4096.Idx → EReal) (x3 : S4096x11008.Idx → EReal)
    (x4 x5 : S11008.Idx → EReal) (x6 : S4096.Idx → EReal) : S4x2048x4096.Idx → EReal :=
  shapeCast S4x2048x4096
    (Spec.down
      (Spec.hidden (shapeCast S8192x4096 x0 shapeCasts_S4x2048x4096_S8192x4096) x1 x2
        (shapeCast S1x11008 x4 shapeCasts_S11008_S1x11008) (shapeCast S1x11008 x5 shapeCasts_S11008_S1x11008))
      x3 (shapeCast S1x4096 x6 shapeCasts_S4096_S1x4096))
    shapeCasts_S8192x4096_S4x2048x4096

section Values

variable (m : (ℓ : Loc nD τ sig) → Buf (Elt Ideal) ℓ) (ρ : Dev nD → PrngReg)

/-- What the first host stretch leaves in each buffer the two calls read: a reshape, or a change of float format
    (the identity on the extended reals), of an argument array. -/
theorem entry_v1 (c : Dev nD) : (V1 m ρ c main_v1 : S8192x4096.Idx → EReal)
    = shapeCast S8192x4096 (m ((c : Thread nD τ).loc main_arg0)) shapeCasts_S4x2048x4096_S8192x4096 := by
  show StableHlo.after hostOps0 (W0 m ρ c) (Proc.devRef .tc main_v1) = _
  after_results
  rfl
theorem entry_v2 (c : Dev nD) : (V1 m ρ c main_v2 : S11008x4096.Idx → EReal) = m ((c : Thread nD τ).loc main_arg1) := by
  show StableHlo.after hostOps0 (W0 m ρ c) (Proc.devRef .tc main_v2) = _
  after_results
  rfl
theorem entry_v3 (c : Dev nD) : (V1 m ρ c main_v3 : S11008x4096.Idx → EReal) = m ((c : Thread nD τ).loc main_arg2) := by
  show StableHlo.after hostOps0 (W0 m ρ c) (Proc.devRef .tc main_v3) = _
  after_results
  rfl
theorem entry_v4 (c : Dev nD) : (V1 m ρ c main_v4 : S4096x11008.Idx → EReal) = m ((c : Thread nD τ).loc main_arg3) := by
  show StableHlo.after hostOps0 (W0 m ρ c) (Proc.devRef .tc main_v4) = _
  after_results
  rfl
theorem entry_v5 (c : Dev nD) : (V1 m ρ c main_v5 : S1x11008.Idx → EReal)
    = shapeCast S1x11008 (m ((c : Thread nD τ).loc main_arg4)) shapeCasts_S11008_S1x11008 := by
  show StableHlo.after hostOps0 (W0 m ρ c) (Proc.devRef .tc main_v5) = _
  after_results
  rfl
theorem entry_v6 (c : Dev nD) : (V1 m ρ c main_v6 : S1x11008.Idx → EReal)
    = shapeCast S1x11008 (m ((c : Thread nD τ).loc main_arg5)) shapeCasts_S11008_S1x11008 := by
  show StableHlo.after hostOps0 (W0 m ρ c) (Proc.devRef .tc main_v6) = _
  after_results
  rfl
theorem entry_v7 (c : Dev nD) : (V1 m ρ c main_v7 : S1x4096.Idx → EReal)
    = shapeCast S1x4096 (m ((c : Thread nD τ).loc main_arg6)) shapeCasts_S4096_S1x4096 := by
  show StableHlo.after hostOps0 (W0 m ρ c) (Proc.devRef .tc main_v7) = _
  after_results
  rfl

/-- The result buffer after the run is `value` of the launch contents of the seven arguments. -/
theorem result_eq (c : Dev nD) : (W4 m ρ c (Proc.devRef .tc main_v10) : S4x2048x4096.Idx → EReal)
    = value (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  have h10 : (W4 m ρ c (Proc.devRef .tc main_v10) : S4x2048x4096.Idx → EReal)
      = shapeCast S4x2048x4096 (W3 m ρ c (Proc.devRef .tc main_v9)) shapeCasts_S8192x4096_S4x2048x4096 := by
    show StableHlo.after hostOps2 (W3 m ρ c) (Proc.devRef .tc main_v10) = _
    after_results
    rfl
  have h9 : W3 m ρ c (Proc.devRef .tc main_v9) = (dat1 (V2 m ρ) c).arrAt 3 cfg1.N := W3_arr m ρ c 3
  have h8 : V2 m ρ c main_v8 = (dat0 (V1 m ρ) c).arrAt 5 cfg0.N := W2_arr m ρ c 5
  have h4 : V2 m ρ c main_v4 = V1 m ρ c main_v4 := W2_of_ne m ρ c main_v4 (by decide)
  have h7 : V2 m ρ c main_v7 = V1 m ρ c main_v7 := W2_of_ne m ρ c main_v7 (by decide)
  rw [h10, h9, Down.down_array (V2 m ρ) c, h8, GateUp.hidden_array (V1 m ρ) c, h4, h7,
    entry_v1, entry_v2, entry_v3, entry_v4, entry_v5, entry_v6, entry_v7]
  rfl

/-- The run, read: the result at `value` of the arguments, the arguments unchanged. -/
theorem run : θ_run defs (onTc (τ := τ) (main (F := Ideal))) ⟨m, fun _ => 0, ρ⟩ (fun r => ∀ c : Dev nD,
      r.2.mem ((c.tc : Thread nD τ).loc main_v10)
        = value (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨(h c _ (mem_uc main_v10 (by decide))).trans (result_eq m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)
    (run_all m ρ)

end Values

end Cert.KernelIdeal.RunValue

end
-- ==== Proof.Bridge.lean ====
/-
  The kernel program's value and the reference's value are one function of the seven arguments.

  Both are, at entry (b, s, n) of the [4, 2048, 4096] result,
      (Σ_i ((g_i · logistic g_i) · u_i) · Wd[n,i]) · ad[n],
      g_i = (Σ_k x[b,s,k] · Wg[i,k]) · ag[i],   u_i = (Σ_k x[b,s,k] · Wu[i,k]) · au[i]   (`G`).
  The kernel program reaches it through row 2048·b + s of the activations viewed as 8192 rows and through the scale
  vectors viewed as one-row matrices: a reshape keeps the row-major position, so these views read the same entries.
  The reference spells the logistic function as 1 / (1 + exp (−g)), which is its definition on the extended reals, and
  broadcasts each scale vector over the leading axes.
-/
import proofs.«155312_j63883343560961_2_alg».proof.Proof.Run
import proofs.«155312_j63883343560961_2_alg».proof.Proof.Gen.ReferenceIdeal.Read
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.ValueIdx Cert.KernelIdeal Cert.KernelIdeal.Gen

/-- One projection entry in the reference's layout: row (b, s) of the activations against row i of the weights, times
    channel i's scale. -/
def proj3 (x0 : S4x2048x4096.Idx → EReal) (w : S11008x4096.Idx → EReal) (a : S11008.Idx → EReal)
    (b : Fin 4) (s : Fin 2048) (i : Fin 11008) : EReal :=
  (∑ k : Fin 4096, x0 (ix3 b s k) * w (ix2 i k)) * a (ix1 i)

/-- The gated MLP, entry by entry, over the arguments as given. -/
def G (x0 : S4x2048x4096.Idx → EReal) (x1 x2 : S11008x4096.Idx → EReal) (x3 : S4096x11008.Idx → EReal)
    (x4 x5 : S11008.Idx → EReal) (x6 : S4096.Idx → EReal) : S4x2048x4096.Idx → EReal := fun j =>
  (∑ i : Fin 11008,
      ((proj3 x0 x1 x4 (j 0) (j 1) i * Ideal.logistic (proj3 x0 x1 x4 (j 0) (j 1) i)) * proj3 x0 x2 x5 (j 0) (j 1) i)
        * x3 (ix2 (j 2) i))
    * x6 (ix1 (j 2))

/-! ## The views keep the row-major position -/

/-- Row 2048·b + s of the activations viewed as 8192 rows is row (b, s). -/
theorem rows_read {α : Type} (x0 : S4x2048x4096.Idx → α) (b : Fin 4) (s : Fin 2048) (k : Fin 4096) (hp : 2048 * b.val + s.val < 8192) :
    shapeCast S8192x4096 x0 shapeCasts_S4x2048x4096_S8192x4096 (ix2 (⟨2048 * b.val + s.val, hp⟩ : Fin 8192) k) = x0 (ix3 b s k) :=
  shapeCast_apply x0 _ _ _ (by
    rw [Shape.rowMajor_val_three, Shape.rowMajor_val_two]
    show (b.val * 2048 + s.val) * 4096 + k.val = (2048 * b.val + s.val) * 4096 + k.val
    omega)

/-- Entry (b, s, n) of an [8192, 4096] array viewed as [4, 2048, 4096] is its entry (2048·b + s, n). -/
theorem rows_write {α : Type} (y : S8192x4096.Idx → α) (b : Fin 4) (s : Fin 2048) (n : Fin 4096) (hp : 2048 * b.val + s.val < 8192) :
    shapeCast S4x2048x4096 y shapeCasts_S8192x4096_S4x2048x4096 (ix3 b s n) = y (ix2 (⟨2048 * b.val + s.val, hp⟩ : Fin 8192) n) :=
  shapeCast_apply y _ _ _ (by
    rw [Shape.rowMajor_val_three, Shape.rowMajor_val_two]
    show (2048 * b.val + s.val) * 4096 + n.val = (b.val * 2048 + s.val) * 4096 + n.val
    omega)

/-- A vector viewed as a one-row matrix reads its own entries. -/
theorem row_11008 {α : Type} (a : S11008.Idx → α) (i : Fin 11008) :
    shapeCast S1x11008 a shapeCasts_S11008_S1x11008 (ix2 (0 : Fin 1) i) = a (ix1 i) :=
  shapeCast_apply a _ _ _ (by
    rw [Shape.rowMajor_val_one, Shape.rowMajor_val_two]
    show i.val = 0 * 11008 + i.val
    omega)
theorem row_4096 {α : Type} (a : S4096.Idx → α) (n : Fin 4096) :
    shapeCast S1x4096 a shapeCasts_S4096_S1x4096 (ix2 (0 : Fin 1) n) = a (ix1 n) :=
  shapeCast_apply a _ _ _ (by
    rw [Shape.rowMajor_val_one, Shape.rowMajor_val_two]
    show n.val = 0 * 4096 + n.val
    omega)

/-! ## The kernel program's value is `G` -/

theorem proj_eq (x0 : S4x2048x4096.Idx → EReal) (w : S11008x4096.Idx → EReal) (a : S11008.Idx → EReal)
    (b : Fin 4) (s : Fin 2048) (i : Fin 11008) (hp : 2048 * b.val + s.val < 8192) :
    Spec.proj (shapeCast S8192x4096 x0 shapeCasts_S4x2048x4096_S8192x4096) w (shapeCast S1x11008 a shapeCasts_S11008_S1x11008)
      (⟨2048 * b.val + s.val, hp⟩ : Fin 8192) i = proj3 x0 w a b s i := by
  unfold Spec.proj proj3
  rw [row_11008]
  congr 1
  exact Finset.sum_congr rfl fun k _ => by rw [rows_read]

theorem value_eq_G (x0 : S4x2048x4096.Idx → EReal) (x1 x2 : S11008x4096.Idx → EReal) (x3 : S4096x11008.Idx → EReal)
    (x4 x5 : S11008.Idx → EReal) (x6 : S4096.Idx → EReal) :
    RunValue.value x0 x1 x2 x3 x4 x5 x6 = G x0 x1 x2 x3 x4 x5 x6 := by
  funext j
  obtain ⟨b, s, n, rfl⟩ : ∃ (b : Fin 4) (s : Fin 2048) (n : Fin 4096), j = ix3 b s n := ⟨j 0, j 1, j 2, eq_ix3 j⟩
  have hp : 2048 * b.val + s.val < 8192 := by have := b.isLt; have := s.isLt; omega
  unfold RunValue.value
  rw [rows_write _ b s n hp]
  unfold Spec.down G
  show (∑ i : Fin 11008, Spec.hidden _ x1 x2 _ _ (ix2 (⟨2048 * b.val + s.val, hp⟩ : Fin 8192) i) * x3 (ix2 n i))
      * shapeCast S1x4096 x6 shapeCasts_S4096_S1x4096 (ix2 (0 : Fin 1) n)
    = (∑ i : Fin 11008, ((proj3 x0 x1 x4 b s i * Ideal.logistic (proj3 x0 x1 x4 b s i)) * proj3 x0 x2 x5 b s i) * x3 (ix2 n i))
      * x6 (ix1 n)
  rw [row_4096]
  congr 1
  refine Finset.sum_congr rfl fun i _ => ?_
  congr 1
  unfold Spec.hidden
  show (Spec.proj _ x1 _ (⟨2048 * b.val + s.val, hp⟩ : Fin 8192) i * Ideal.logistic (Spec.proj _ x1 _ (⟨2048 * b.val + s.val, hp⟩ : Fin 8192) i))
      * Spec.proj _ x2 _ (⟨2048 * b.val + s.val, hp⟩ : Fin 8192) i = _
  rw [proj_eq, proj_eq]

/-! ## The reference's value is `G` -/

section Reference

open Cert.ReferenceIdeal.Read

/-- The pattern of 1.0 denotes the extended real 1. -/
theorem one_f32 : FloatOps.ofBits (F := Ideal) .f32 0x3F800000#32 = (1 : EReal) :=
  IdealRules.sign_bit.ideal_onePat .f32

variable (x0 : S4x2048x4096.Idx → EReal) (x1 x2 : S11008x4096.Idx → EReal) (x3 : S4096x11008.Idx → EReal)
  (x4 x5 : S11008.Idx → EReal) (x6 : S4096.Idx → EReal)

/-- The reference's gate projection at (b, s, i): the contraction over the hidden axis times the broadcast scale. -/
theorem ref_gate (j : S4x2048x4096.Idx) (i : Fin 11008) :
    val_main_v3 (F := Ideal) x0 x1 x4 (lidx_main_v10 j i) = proj3 x0 x1 x4 (j 0) (j 1) i := by
  rw [val_main_v3_apply, val_main_v0_apply, val_main_v2_apply, val_main_v1_apply]
  unfold proj3
  show (∑ k : Fin 4096, x0 (lidx_main_v0 (lidx_main_v10 j i) k) * x1 (ridx_main_v0 (lidx_main_v10 j i) k))
      * x4 (idx_main_v1 (idx_main_v2 (lidx_main_v10 j i))) = _
  rw [show idx_main_v1 (idx_main_v2 (lidx_main_v10 j i)) = ix1 i from funext fun a => by match a with | ⟨0, _⟩ => rfl]
  congr 1
  refine Finset.sum_congr rfl fun k _ => ?_
  rw [show lidx_main_v0 (lidx_main_v10 j i) k = ix3 (j 0) (j 1) k from
        funext fun a => by match a with | ⟨0, _⟩ => rfl | ⟨1, _⟩ => rfl | ⟨2, _⟩ => rfl,
      show ridx_main_v0 (lidx_main_v10 j i) k = ix2 i k from
        funext fun a => by match a with | ⟨0, _⟩ => rfl | ⟨1, _⟩ => rfl]
  rfl

/-- The reference's up projection at (b, s, i). -/
theorem ref_up (j : S4x2048x4096.Idx) (i : Fin 11008) :
    val_main_v7 (F := Ideal) x0 x2 x5 (lidx_main_v10 j i) = proj3 x0 x2 x5 (j 0) (j 1) i := by
  rw [val_main_v7_apply, val_main_v4_apply, val_main_v6_apply, val_main_v5_apply]
  unfold proj3
  show (∑ k : Fin 4096, x0 (lidx_main_v4 (lidx_main_v10 j i) k) * x2 (ridx_main_v4 (lidx_main_v10 j i) k))
      * x5 (idx_main_v5 (idx_main_v6 (lidx_main_v10 j i))) = _
  rw [show idx_main_v5 (idx_main_v6 (lidx_main_v10 j i)) = ix1 i from funext fun a => by match a with | ⟨0, _⟩ => rfl]
  congr 1
  refine Finset.sum_congr rfl fun k _ => ?_
  rw [show lidx_main_v4 (lidx_main_v10 j i) k = ix3 (j 0) (j 1) k from
        funext fun a => by match a with | ⟨0, _⟩ => rfl | ⟨1, _⟩ => rfl | ⟨2, _⟩ => rfl,
      show ridx_main_v4 (lidx_main_v10 j i) k = ix2 i k from
        funext fun a => by match a with | ⟨0, _⟩ => rfl | ⟨1, _⟩ => rfl]
  rfl

/-- The reference's 1 / (1 + exp (−g)) is the logistic function of g: its definition on the extended reals. -/
theorem ref_sigmoid (q : Cert.ReferenceIdeal.S4x2048x11008.Idx) :
    val_main_call0_v5 (F := Ideal) x0 x1 x4 q = Ideal.logistic (val_main_v3 (F := Ideal) x0 x1 x4 q) := by
  rw [val_main_call0_v5_apply, val_main_call0_v4_apply, val_main_call0_cst_0_apply, val_main_call0_v3_apply,
    val_main_call0_v2_apply, val_main_call0_cst_apply, val_main_call0_v1_apply, val_main_call0_v0_apply, one_f32]
  rfl

/-- The reference's inner activation at (b, s, i). -/
theorem ref_hidden (j : S4x2048x4096.Idx) (i : Fin 11008) :
    val_main_v9 (F := Ideal) x0 x1 x2 x4 x5 (lidx_main_v10 j i)
      = (proj3 x0 x1 x4 (j 0) (j 1) i * Ideal.logistic (proj3 x0 x1 x4 (j 0) (j 1) i)) * proj3 x0 x2 x5 (j 0) (j 1) i := by
  rw [val_main_v9_apply, val_main_v8_apply, ref_sigmoid, ref_gate, ref_up]
  rfl

/-- The reference's result is `G` of its arguments. -/
theorem ref_eq_G : val_main_v13 (F := Ideal) x0 x1 x2 x3 x4 x5 x6 = G x0 x1 x2 x3 x4 x5 x6 := by
  funext j
  rw [val_main_v13_apply, val_main_v10_apply, val_main_v12_apply, val_main_v11_apply]
  unfold G
  show (∑ i : Fin 11008, val_main_v9 (F := Ideal) x0 x1 x2 x4 x5 (lidx_main_v10 j i) * x3 (ridx_main_v10 j i))
      * x6 (idx_main_v11 (idx_main_v12 j)) = _
  rw [show idx_main_v11 (idx_main_v12 j) = ix1 (j 2) from funext fun a => by match a with | ⟨0, _⟩ => rfl]
  congr 1
  refine Finset.sum_congr rfl fun i _ => ?_
  rw [ref_hidden, show ridx_main_v10 j i = ix2 (j 2) i from
        funext fun a => by match a with | ⟨0, _⟩ => rfl | ⟨1, _⟩ => rfl]
  rfl

end Reference

end Cert.Bridge

end
-- ==== Proof.lean ====
/-
  The gated (SwiGLU) MLP with per-channel scales, computed by two tiled calls — gate and up projections with SiLU
  over an [8, 43] grid of blocks, then the down projection accumulated over 43 blocks of the inner axis into an output
  block that stays in place, scaled after the last — against the plain three-contraction reference.

  On the extended reals both programs compute, at entry (b, s, n),
      (Σ_i ((g_i · logistic g_i) · u_i) · Wd[n,i]) · ad[n],   g_i = (Σ_k x[b,s,k]·Wg[i,k])·ag[i],  u_i = (Σ_k x[b,s,k]·Wu[i,k])·au[i].
  The kernel's sum over the inner axis is taken in 43 consecutive runs of 256 added one after another into a zeroed
  block; addition of extended reals is commutative and associative, so the runs regroup into the one sum without any
  finiteness. A change of float format is the identity there, a reshape keeps the row-major position, and the
  reference's 1 / (1 + exp (−g)) is the logistic function by definition. The scale by ad is applied once, to the whole
  sum, on both sides, so no distributive law is used and the precondition is never opened.
-/
import proofs.«155312_j63883343560961_2_alg».proof.Defs
import proofs.«155312_j63883343560961_2_alg».proof.Proof.Gen.Kernel
import proofs.«155312_j63883343560961_2_alg».proof.Proof.Gen.Kernel.Skeleton
import proofs.«155312_j63883343560961_2_alg».proof.Proof.Gen.Kernel.Launch
import proofs.«155312_j63883343560961_2_alg».proof.Proof.Gen.Kernel.Points
import proofs.«155312_j63883343560961_2_alg».proof.Proof.Gen.Kernel.Frame
import proofs.«155312_j63883343560961_2_alg».proof.Proof.Gen.KernelIdeal
import proofs.«155312_j63883343560961_2_alg».proof.Proof.Gen.KernelIdeal.Skeleton
import proofs.«155312_j63883343560961_2_alg».proof.Proof.Gen.KernelIdeal.Launch
import proofs.«155312_j63883343560961_2_alg».proof.Proof.Gen.KernelIdeal.Points
import proofs.«155312_j63883343560961_2_alg».proof.Proof.Gen.KernelIdeal.Frame
import proofs.«155312_j63883343560961_2_alg».proof.Proof.Gen.ReferenceIdeal
import proofs.«155312_j63883343560961_2_alg».proof.Proof.Gen.Pre_finite_inputs
import proofs.«155312_j63883343560961_2_alg».proof.Proof.Gen.ReferenceIdeal.Run
import proofs.«155312_j63883343560961_2_alg».proof.Proof.Gen.ReferenceIdeal.Read
import proofs.«155312_j63883343560961_2_alg».proof.Proof.Run
import proofs.«155312_j63883343560961_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten for the reading on the extended reals. -/
theorem preserves : Cert.preserves_Kernel_KernelIdeal := trivial

/-- From memories that agree on the seven arguments both programs end with the result at the gated MLP `Bridge.G`
    of those arguments, entry by entry. -/
theorem algebraic : Cert.algebraic_KernelIdeal_ReferenceIdeal := by
  intro m ρ m' ρ' _ hagree
  refine ⟨fun c => Cert.Bridge.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.Bridge.value_eq_G _ _ _ _ _ _ _), (h c).2⟩)
      (Cert.KernelIdeal.RunValue.run m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v13_eq, Cert.Bridge.ref_eq_G,
      (hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
